-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1250000 : Shape := ⟨2, ![2, 1250000]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1250000 32) (main_arg2 : FVec F S32x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1250000 : Shape := ⟨2, ![2, 1250000]⟩
abbrev S32x64 : Shape := ⟨2, ![32, 64]⟩
abbrev S64 : Shape := ⟨1, ![64]⟩
abbrev S64x64 : Shape := ⟨2, ![64, 64]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S10000 : Shape := ⟨1, ![10000]⟩
abbrev S10000x1 : Shape := ⟨2, ![10000, 1]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩

abbrev nBuf : Space → Nat
  | .hbm => 35
  | .vmem => 12
  | .smem => 0
  | _ => 0

abbrev bufTy : (tb : Table) → Fin (tcTables nBuf tb) → BufTy
  | .hbm, ⟨0, _⟩ => ⟨S100000x32, .f32⟩
  | .hbm, ⟨1, _⟩ => ⟨S2x1250000, .i32⟩
  | .hbm, ⟨2, _⟩ => ⟨S32x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S100000x64, .f32⟩
  | .hbm, ⟨17, _⟩ => ⟨S1x1250000, .i32⟩
  | .hbm, ⟨18, _⟩ => ⟨S1250000, .i32⟩
  | .hbm, ⟨19, _⟩ => ⟨S1x1250000, .i32⟩
  | .hbm, ⟨20, _⟩ => ⟨S1250000, .i32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .f32⟩
  | .hbm, ⟨31, _⟩ => ⟨S100000x64, .f32⟩
  | .hbm, ⟨32, _⟩ => ⟨S1250000x1, .i32⟩
  | .hbm, ⟨33, _⟩ => ⟨S100000x64, .f32⟩
  | .hbm, ⟨34, _⟩ => ⟨S100000x64, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  dot_S10000x32_S32x64_S10000x64_1_0_0_1_n_n_wf : DotDims.WF S10000x32 S32x64 S10000x64 [1] [0] [0] [1] [] []
  dot_S10000x64_S64x64_S10000x64_1_0_0_1_n_n_wf : DotDims.WF S10000x64 S64x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S100000x64.size a
  hwx0_9 : ∀ i : grid0.Coords, EltTy.bits .f32 = 32 ∨ (Rect.block (s := S100000x64) S10000x64.size (cc0_transform_9 i) (hinb0_9 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x1250000 : Shape := ⟨2, ![2, 1250000]⟩
abbrev S32x64 : Shape := ⟨2, ![32, 64]⟩
abbrev S64 : Shape := ⟨1, ![64]⟩
abbrev S64x64 : Shape := ⟨2, ![64, 64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S100000x1 : Shape := ⟨2, ![100000, 1]⟩
abbrev S1x1250000 : Shape := ⟨2, ![1, 1250000]⟩
abbrev S1250000 : Shape := ⟨1, ![1250000]⟩
abbrev S1250000x1 : Shape := ⟨2, ![1250000, 1]⟩
abbrev S1250000x64 : Shape := ⟨2, ![1250000, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1250000, .i32⟩
  | .hbm, ⟨2, _⟩ => ⟨S32x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S100000x64, .f32⟩
  | .hbm, ⟨11, _⟩ => ⟨S1x64, .f32⟩
  | .hbm, ⟨12, _⟩ => ⟨S100000x64, .f32⟩
  | .hbm, ⟨13, _⟩ => ⟨S100000x64, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S_, .f32⟩
  | .hbm, ⟨18, _⟩ => ⟨S100000x1, .f32⟩
  | .hbm, ⟨19, _⟩ => ⟨S100000x1, .f32⟩
  | .hbm, ⟨20, _⟩ => ⟨S100000x64, .f32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S1x1250000, .i32⟩
  | .hbm, ⟨83, _⟩ => ⟨S1250000, .i32⟩
  | .hbm, ⟨84, _⟩ => ⟨S1x1250000, .i32⟩
  | .hbm, ⟨85, _⟩ => ⟨S1250000, .i32⟩
  | .hbm, ⟨86, _⟩ => ⟨S_, .i32⟩
  | .hbm, ⟨87, _⟩ => ⟨S1250000, .i32⟩
  | .hbm, ⟨88, _⟩ => ⟨S1250000, .i1⟩
  | .hbm, ⟨89, _⟩ => ⟨S_, .i32⟩
  | .hbm, ⟨90, _⟩ => ⟨S1250000, .i32⟩
  | .hbm, ⟨91, _⟩ => ⟨S1250000, .i32⟩
  | .hbm, ⟨92, _⟩ => ⟨S1250000, .i32⟩
  | .hbm, ⟨93, _⟩ => ⟨S1250000x1, .i32⟩
  | .hbm, ⟨94, _⟩ => ⟨S1250000x64, .f32⟩
  | .hbm, ⟨95, _⟩ => ⟨S_, .f32⟩
  | .hbm, ⟨96, _⟩ => ⟨S100000x64, .f32⟩
  | .hbm, ⟨97, _⟩ => ⟨S1250000x1, .i32⟩
  | .hbm, ⟨98, _⟩ => ⟨S100000x64, .f32⟩
  | .hbm, ⟨99, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c : Ref sig .tc := ⟨.hbm, 86, rfl⟩
abbrev main_v62 : Ref sig .tc := ⟨.hbm, 87, rfl⟩
abbrev main_v63 : Ref sig .tc := ⟨.hbm, 88, rfl⟩
abbrev main_c_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.NormRow.lean ====
/-
  Layer normalisation followed by a gain, an offset and the rectifier, on one row of extended reals, and the two
  ways a program spells it on a whole [n, d] array: with the vector unit's operations (a lane sum kept as a column,
  a column spread back over the row, a [1, d] row spread down the rows) and with the host's (a reduce with an
  initial value, broadcasts along named axes). Both, read at an entry (r, j), are the row function of row r at j.

  The row's mean is the row's sum divided by the word 64.0; its variance the sum of the squared deviations divided
  by the same word; the entry is max ((y j − mean) · rsqrt (variance + ε) · g j + β j, 0) with ε and 0 the words the
  programs carry. Every operation is the one on the extended reals, so nothing here asks an entry to be finite: the
  two spellings apply the same operations to the same operands in the same order, and a finite sum on the extended
  reals does not depend on the order of its terms.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«125154_j44220983279747_1_alg».proof.Proof.LibSoftmaxRow

noncomputable section

namespace Cert.NormRow

open Idealize.ShloMosaic Idealize.ShloMosaic.ValueIdx

/-! ## The row function -/

/-- The row's sum over the word 64.0. -/
def rowMean {d : ℕ} (y : Fin d → EReal) : EReal :=
  Ideal.div (∑ k : Fin d, y k) (Ideal.ofBits .f32 0x42800000#32)

/-- The sum of the squared deviations from the mean over the word 64.0. -/
def rowVar {d : ℕ} (y : Fin d → EReal) : EReal :=
  Ideal.div (∑ k : Fin d, (y k - rowMean y) * (y k - rowMean y)) (Ideal.ofBits .f32 0x42800000#32)

/-- The normalised, scaled, shifted and rectified entry j of the row y. -/
def lnRelu {d : ℕ} (y g β : Fin d → EReal) (j : Fin d) : EReal :=
  max ((y j - rowMean y) * Ideal.rsqrt (rowVar y + Ideal.ofBits .f32 0x3727C5AC#32) * g j + β j)
    (Ideal.ofBits .f32 0x00000000#32)

/-- The row function reads its three rows entry by entry. -/
theorem lnRelu_congr {d : ℕ} {y y' g g' β β' : Fin d → EReal} (hy : ∀ k, y k = y' k) (hg : ∀ k, g k = g' k)
    (hβ : ∀ k, β k = β' k) (j : Fin d) : lnRelu y g β j = lnRelu y' g' β' j := by
  rw [funext hy, funext hg, funext hβ]

/-! ## Pointwise inverse square roots at an index -/

theorem rsqrt_apply {s : Shape} {φ : FTy} (x : FVec Ideal s φ) (i : s.Idx) : rsqrt x i = Ideal.rsqrt (x i) := rfl

theorem hostRsqrt_apply {s : Shape} {φ : FTy} (x : FVec Ideal s φ) (i : s.Idx) : Host.rsqrt x i = Ideal.rsqrt (x i) := rfl

/-! ## The host's broadcasts along named axes, at an index -/

/-- [n] to [n, 1] along axis 0. -/
theorem bcast_n_n1 {α : Type} {n : ℕ} (x : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h x (ix2 r u) = x (ix1 r) := by
  refine broadcastInDim_apply ![0] h x (ix2 r u) (ix1 r) fun a => ?_
  match a with
  | ⟨0, _⟩ =>
    show r.val = if n = 1 then 0 else r.val
    split
    · have := r.isLt; omega
    · rfl

/-- [n, 1] to [n, d] along axes 0 and 1. -/
theorem bcast_n1_nd {α : Type} {n d : ℕ} (x : (⟨2, ![n, 1]⟩ : Shape).Idx → α)
    (h : (⟨2, ![n, 1]⟩ : Shape).BroadcastsInDim ⟨2, ![n, d]⟩ ![0, 1]) (r : Fin n) (j : Fin d) :
    broadcastInDim ⟨2, ![n, d]⟩ ![0, 1] h x (ix2 r j) = x (ix2 r (0 : Fin 1)) := by
  refine broadcastInDim_apply ![0, 1] h x (ix2 r j) (ix2 r (0 : Fin 1)) fun a => ?_
  match a with
  | ⟨0, _⟩ =>
    show r.val = if n = 1 then 0 else r.val
    split
    · have := r.isLt; omega
    · rfl
  | ⟨1, _⟩ => rfl

/-- [d] to [1, d] along axis 1. -/
theorem bcast_d_1d {α : Type} {d : ℕ} (x : (⟨1, ![d]⟩ : Shape).Idx → α)
    (h : (⟨1, ![d]⟩ : Shape).BroadcastsInDim ⟨2, ![1, d]⟩ ![1]) (u : Fin 1) (j : Fin d) :
    broadcastInDim ⟨2, ![1, d]⟩ ![1] h x (ix2 u j) = x (ix1 j) := by
  refine broadcastInDim_apply ![1] h x (ix2 u j) (ix1 j) fun a => ?_
  match a with
  | ⟨0, _⟩ =>
    show j.val = if d = 1 then 0 else j.val
    split
    · have := j.isLt; omega
    · rfl

/-- [1, d] to [n, d] along axes 0 and 1. -/
theorem bcast_1d_nd {α : Type} {n d : ℕ} (x : (⟨2, ![1, d]⟩ : Shape).Idx → α)
    (h : (⟨2, ![1, d]⟩ : Shape).BroadcastsInDim ⟨2, ![n, d]⟩ ![0, 1]) (r : Fin n) (j : Fin d) :
    broadcastInDim ⟨2, ![n, d]⟩ ![0, 1] h x (ix2 r j) = x (ix2 (0 : Fin 1) j) := by
  refine broadcastInDim_apply ![0, 1] h x (ix2 r j) (ix2 (0 : Fin 1) j) fun a => ?_
  match a with
  | ⟨0, _⟩ => rfl
  | ⟨1, _⟩ =>
    show j.val = if d = 1 then 0 else j.val
    split
    · have := j.isLt; omega
    · rfl

/-- The host's sum along the last axis of [n, d], at row r: the initial value plus the row's sum. -/
theorem hostReduceAdd_row {n d : ℕ} {u : Shape} (x : FVec Ideal ⟨2, ![n, d]⟩ .f32) (init : u.Idx → Ideal .f32)
    (h' : (⟨2, ![n, d]⟩ : Shape).ReducesTo [1] ⟨1, ![n]⟩) (h : (⟨2, ![n, d]⟩ : Shape).Reduces [1] ⟨1, ![n]⟩)
    (hu : 0 < u.numel) (r : Fin n) :
    Host.reduceAdd x init h' hu (ix1 r) = init (Shape.Idx.first hu) + ∑ k : Fin d, x (ix2 r k) := by
  rw [hostReduceAdd_apply, Ideal.hostReduceAdd_single h' h]
  exact congrArg _ (Finset.sum_congr rfl fun k _ => congrArg x (LibSoftmaxRow.lift_row2 h r k))

/-! ## The vector unit's spelling -/

/-- The layer on an [n, d] array with the vector unit's operations: the lane sums kept as [n, 1] columns, the
    columns and the [1, d] gain and offset rows spread over the array. -/
def vecNorm {n d : ℕ} (y : FVec Ideal ⟨2, ![n, d]⟩ .f32) (g β : FVec Ideal ⟨2, ![1, d]⟩ .f32)
    (hr : (⟨2, ![n, d]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩)
    (h1 : (⟨2, ![1, d]⟩ : Shape).ShapeCasts ⟨2, ![1, d]⟩) (hb1 : (⟨2, ![1, d]⟩ : Shape).Broadcasts ⟨2, ![n, d]⟩) :
    FVec Ideal ⟨2, ![n, d]⟩ .f32 :=
  maximumf
    (addf
      (mulf
        (mulf
          (subf y (broadcastTo ⟨2, ![n, d]⟩ (divf (shapeCast ⟨2, ![n, 1]⟩ (multiReduction .add [1] ⟨1, ![n]⟩ y 0x00000000#32 hr hφ hacc) hc) (broadcast ⟨2, ![n, 1]⟩ (Scalar.ofBits .f32 0x42800000#32))) hb))
          (broadcastTo ⟨2, ![n, d]⟩
            (rsqrt (addf
              (divf (shapeCast ⟨2, ![n, 1]⟩ (multiReduction .add [1] ⟨1, ![n]⟩
                (mulf
                  (subf y (broadcastTo ⟨2, ![n, d]⟩ (divf (shapeCast ⟨2, ![n, 1]⟩ (multiReduction .add [1] ⟨1, ![n]⟩ y 0x00000000#32 hr hφ hacc) hc) (broadcast ⟨2, ![n, 1]⟩ (Scalar.ofBits .f32 0x42800000#32))) hb))
                  (subf y (broadcastTo ⟨2, ![n, d]⟩ (divf (shapeCast ⟨2, ![n, 1]⟩ (multiReduction .add [1] ⟨1, ![n]⟩ y 0x00000000#32 hr hφ hacc) hc) (broadcast ⟨2, ![n, 1]⟩ (Scalar.ofBits .f32 0x42800000#32))) hb)))
                0x00000000#32 hr hφ hacc) hc) (broadcast ⟨2, ![n, 1]⟩ (Scalar.ofBits .f32 0x42800000#32)))
              (broadcast ⟨2, ![n, 1]⟩ (Scalar.ofBits .f32 0x3727C5AC#32)))) hb))
        (broadcastTo ⟨2, ![n, d]⟩ (shapeCast ⟨2, ![1, d]⟩ g h1) hb1))
      (broadcastTo ⟨2, ![n, d]⟩ (shapeCast ⟨2, ![1, d]⟩ β h1) hb1))
    (broadcast ⟨2, ![n, d]⟩ (Scalar.ofBits .f32 0x00000000#32))

/-- At entry (r, j) the vector unit's layer is the row function of row r, with the gain and the offset read off
    their one row. -/
theorem vecNorm_apply {n d : ℕ} (y : FVec Ideal ⟨2, ![n, d]⟩ .f32) (g β : FVec Ideal ⟨2, ![1, d]⟩ .f32)
    (hr : (⟨2, ![n, d]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩)
    (h1 : (⟨2, ![1, d]⟩ : Shape).ShapeCasts ⟨2, ![1, d]⟩) (hb1 : (⟨2, ![1, d]⟩ : Shape).Broadcasts ⟨2, ![n, d]⟩)
    (r : Fin n) (j : Fin d) :
    vecNorm y g β hr hφ hacc hc hb h1 hb1 (ix2 r j)
      = lnRelu (fun k => y (ix2 r k)) (fun k => g (ix2 (0 : Fin 1) k)) (fun k => β (ix2 (0 : Fin 1) k)) j := by
  unfold vecNorm lnRelu rowVar rowMean
  simp only [maximumf_apply, addf_apply, mulf_apply, subf_apply, divf_apply, rsqrt_apply, broadcast_apply,
    LibSoftmaxRow.broadcastTo_a1_ab_apply, LibSoftmaxRow.shapeCast_a_a1_apply, LibSoftmaxRow.multiReduction_add_row,
    broadcastTo_1b_ab_apply, shapeCast_self, Ideal.ofBits_def]
  rw [LibSoftmaxRow.multiReduction_add_row y 0x00000000#32 hr hφ hacc r,
    LibSoftmaxRow.multiReduction_add_row _ 0x00000000#32 hr hφ hacc r]
  simp only [mulf_apply, subf_apply, divf_apply, broadcast_apply, LibSoftmaxRow.broadcastTo_a1_ab_apply,
    LibSoftmaxRow.shapeCast_a_a1_apply]
  rw [LibSoftmaxRow.multiReduction_add_row y 0x00000000#32 hr hφ hacc r]

/-! ## The host's spelling -/

/-- A row's sum over the word 64.0 with the host's operations, kept as an [n, 1] column: the sum reduced from the
    zero word's scalar, the divisor a broadcast scalar. -/
def hostMean {n d : ℕ} (y : FVec Ideal ⟨2, ![n, d]⟩ .f32)
    (hr : (⟨2, ![n, d]⟩ : Shape).ReducesTo [1] ⟨1, ![n]⟩) (hu : 0 < (⟨0, ![]⟩ : Shape).numel)
    (hc : (⟨1, ![n]⟩ : Shape).BroadcastsInDim ⟨2, ![n, 1]⟩ ![0])
    (hs : (⟨0, ![]⟩ : Shape).BroadcastsInDim ⟨2, ![n, 1]⟩ ![]) : FVec Ideal ⟨2, ![n, 1]⟩ .f32 :=
  Host.divf (broadcastInDim ⟨2, ![n, 1]⟩ ![0] hc (Host.reduceAdd y (constant (F := Ideal) ⟨0, ![]⟩ .f32 0x00000000#32) hr hu))
    (broadcastInDim ⟨2, ![n, 1]⟩ ![] hs (constant (F := Ideal) ⟨0, ![]⟩ .f32 0x42800000#32))

/-- The deviations from the row means. -/
def hostDev {n d : ℕ} (y : FVec Ideal ⟨2, ![n, d]⟩ .f32)
    (hr : (⟨2, ![n, d]⟩ : Shape).ReducesTo [1] ⟨1, ![n]⟩) (hu : 0 < (⟨0, ![]⟩ : Shape).numel)
    (hc : (⟨1, ![n]⟩ : Shape).BroadcastsInDim ⟨2, ![n, 1]⟩ ![0])
    (hs : (⟨0, ![]⟩ : Shape).BroadcastsInDim ⟨2, ![n, 1]⟩ ![])
    (hb : (⟨2, ![n, 1]⟩ : Shape).BroadcastsInDim ⟨2, ![n, d]⟩ ![0, 1]) : FVec Ideal ⟨2, ![n, d]⟩ .f32 :=
  subf y (broadcastInDim ⟨2, ![n, d]⟩ ![0, 1] hb (hostMean y hr hu hc hs))

/-- The layer on an [n, d] array with the host's operations: the variance is the mean of the squared deviations,
    the [d] gain and offset vectors are broadcast through a [1, d] row. -/
def hostNorm {n d : ℕ} (y : FVec Ideal ⟨2, ![n, d]⟩ .f32) (g β : FVec Ideal ⟨1, ![d]⟩ .f32)
    (hr : (⟨2, ![n, d]⟩ : Shape).ReducesTo [1] ⟨1, ![n]⟩) (hu : 0 < (⟨0, ![]⟩ : Shape).numel)
    (hc : (⟨1, ![n]⟩ : Shape).BroadcastsInDim ⟨2, ![n, 1]⟩ ![0])
    (hs : (⟨0, ![]⟩ : Shape).BroadcastsInDim ⟨2, ![n, 1]⟩ ![])
    (hb : (⟨2, ![n, 1]⟩ : Shape).BroadcastsInDim ⟨2, ![n, d]⟩ ![0, 1])
    (h1 : (⟨1, ![d]⟩ : Shape).BroadcastsInDim ⟨2, ![1, d]⟩ ![1])
    (hb1 : (⟨2, ![1, d]⟩ : Shape).BroadcastsInDim ⟨2, ![n, d]⟩ ![0, 1])
    (hz : (⟨0, ![]⟩ : Shape).BroadcastsInDim ⟨2, ![n, d]⟩ ![]) : FVec Ideal ⟨2, ![n, d]⟩ .f32 :=
  maximumf
    (addf
      (mulf
        (mulf (hostDev y hr hu hc hs hb)
          (broadcastInDim ⟨2, ![n, d]⟩ ![0, 1] hb
            (Host.rsqrt (addf (hostMean (mulf (hostDev y hr hu hc hs hb) (hostDev y hr hu hc hs hb)) hr hu hc hs)
              (broadcastInDim ⟨2, ![n, 1]⟩ ![] hs (constant (F := Ideal) ⟨0, ![]⟩ .f32 0x3727C5AC#32))))))
        (broadcastInDim ⟨2, ![n, d]⟩ ![0, 1] hb1 (broadcastInDim ⟨2, ![1, d]⟩ ![1] h1 g)))
      (broadcastInDim ⟨2, ![n, d]⟩ ![0, 1] hb1 (broadcastInDim ⟨2, ![1, d]⟩ ![1] h1 β)))
    (broadcastInDim ⟨2, ![n, d]⟩ ![] hz (constant (F := Ideal) ⟨0, ![]⟩ .f32 0x00000000#32))

/-- The host's mean column at row r is the row's mean: the sum's initial value is the zero word, which adds
    nothing. -/
theorem hostMean_apply {n d : ℕ} (y : FVec Ideal ⟨2, ![n, d]⟩ .f32)
    (hr : (⟨2, ![n, d]⟩ : Shape).ReducesTo [1] ⟨1, ![n]⟩) (hu : 0 < (⟨0, ![]⟩ : Shape).numel)
    (hc : (⟨1, ![n]⟩ : Shape).BroadcastsInDim ⟨2, ![n, 1]⟩ ![0])
    (hs : (⟨0, ![]⟩ : Shape).BroadcastsInDim ⟨2, ![n, 1]⟩ ![])
    (hR : (⟨2, ![n, d]⟩ : Shape).Reduces [1] ⟨1, ![n]⟩) (r : Fin n) (u : Fin 1) :
    hostMean y hr hu hc hs (ix2 r u) = rowMean (fun k => y (ix2 r k)) := by
  unfold hostMean rowMean
  rw [hostDivf_apply, bcast_n_n1, hostReduceAdd_row y _ hr hR hu r, broadcastInDim_scalar_apply, constant_apply,
    constant_apply, Ideal.ofBits_zero_f32, zero_add]

theorem hostDev_apply {n d : ℕ} (y : FVec Ideal ⟨2, ![n, d]⟩ .f32)
    (hr : (⟨2, ![n, d]⟩ : Shape).ReducesTo [1] ⟨1, ![n]⟩) (hu : 0 < (⟨0, ![]⟩ : Shape).numel)
    (hc : (⟨1, ![n]⟩ : Shape).BroadcastsInDim ⟨2, ![n, 1]⟩ ![0])
    (hs : (⟨0, ![]⟩ : Shape).BroadcastsInDim ⟨2, ![n, 1]⟩ ![])
    (hb : (⟨2, ![n, 1]⟩ : Shape).BroadcastsInDim ⟨2, ![n, d]⟩ ![0, 1])
    (hR : (⟨2, ![n, d]⟩ : Shape).Reduces [1] ⟨1, ![n]⟩) (r : Fin n) (k : Fin d) :
    hostDev y hr hu hc hs hb (ix2 r k) = y (ix2 r k) - rowMean (fun k => y (ix2 r k)) := by
  unfold hostDev
  rw [subf_apply, bcast_n1_nd, hostMean_apply y hr hu hc hs hR]

/-- At entry (r, j) the host's layer is the row function of row r. -/
theorem hostNorm_apply {n d : ℕ} (y : FVec Ideal ⟨2, ![n, d]⟩ .f32) (g β : FVec Ideal ⟨1, ![d]⟩ .f32)
    (hr : (⟨2, ![n, d]⟩ : Shape).ReducesTo [1] ⟨1, ![n]⟩) (hu : 0 < (⟨0, ![]⟩ : Shape).numel)
    (hc : (⟨1, ![n]⟩ : Shape).BroadcastsInDim ⟨2, ![n, 1]⟩ ![0])
    (hs : (⟨0, ![]⟩ : Shape).BroadcastsInDim ⟨2, ![n, 1]⟩ ![])
    (hb : (⟨2, ![n, 1]⟩ : Shape).BroadcastsInDim ⟨2, ![n, d]⟩ ![0, 1])
    (h1 : (⟨1, ![d]⟩ : Shape).BroadcastsInDim ⟨2, ![1, d]⟩ ![1])
    (hb1 : (⟨2, ![1, d]⟩ : Shape).BroadcastsInDim ⟨2, ![n, d]⟩ ![0, 1])
    (hz : (⟨0, ![]⟩ : Shape).BroadcastsInDim ⟨2, ![n, d]⟩ ![])
    (hR : (⟨2, ![n, d]⟩ : Shape).Reduces [1] ⟨1, ![n]⟩) (r : Fin n) (j : Fin d) :
    hostNorm y g β hr hu hc hs hb h1 hb1 hz (ix2 r j)
      = lnRelu (fun k => y (ix2 r k)) (fun k => g (ix1 k)) (fun k => β (ix1 k)) j := by
  have hsq : (fun k : Fin d => mulf (hostDev y hr hu hc hs hb) (hostDev y hr hu hc hs hb) (ix2 r k))
      = fun k : Fin d => (y (ix2 r k) - rowMean (fun k => y (ix2 r k))) * (y (ix2 r k) - rowMean (fun k => y (ix2 r k))) :=
    funext fun k => by rw [mulf_apply, hostDev_apply y hr hu hc hs hb hR]
  unfold hostNorm lnRelu
  rw [maximumf_apply, addf_apply, mulf_apply, mulf_apply, hostDev_apply y hr hu hc hs hb hR, bcast_n1_nd,
    hostRsqrt_apply, addf_apply, hostMean_apply _ hr hu hc hs hR, hsq, broadcastInDim_scalar_apply, constant_apply,
    bcast_1d_nd, bcast_d_1d, bcast_1d_nd, bcast_d_1d, broadcastInDim_scalar_apply, constant_apply]
  rfl

end Cert.NormRow

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Mlp.lean ====
/-
  A two-layer perceptron on node features, each layer a dense map followed by layer normalisation, a gain, an
  offset and the rectifier, row by row on the extended reals; and the two spellings of ONE such layer on an [n, K]
  array of rows, the vector unit's (a matrix product into a zero accumulator, a [1, d] bias row spread down the
  rows) and the host's (a dot_general, a [d] bias vector broadcast through a [1, d] row), each read at an entry as
  the row function of that row.

  Row r of a dense map is (∑ k, x k · w (k, j)) + b j; the normalisation is the row function of the module this
  one builds on. Nothing asks for finiteness: both spellings are the same operations on the same operands.
-/
import proofs.«125154_j44220983279747_1_alg».proof.Proof.NormRow
import proofs.«125154_j44220983279747_1_alg».proof.Proof.LibDense

noncomputable section

namespace Cert.Mlp

open Idealize.ShloMosaic Idealize.ShloMosaic.ValueIdx Cert.NormRow

/-- One row through a dense map: the row against each column of the weights, plus the bias. -/
def denseRow {K d : ℕ} (x : Fin K → EReal) (w : (⟨2, ![K, d]⟩ : Shape).Idx → EReal) (b : Fin d → EReal) (j : Fin d) : EReal :=
  (∑ k : Fin K, x k * w (ix2 k j)) + b j

theorem denseRow_congr {K d : ℕ} {x x' : Fin K → EReal} (hx : ∀ k, x k = x' k) (w : (⟨2, ![K, d]⟩ : Shape).Idx → EReal)
    (b : Fin d → EReal) (j : Fin d) : denseRow x w b j = denseRow x' w b j := by
  rw [funext hx]

/-- One layer of one row: dense, then normalised, scaled, shifted and rectified. -/
def layerRow {K d : ℕ} (x : Fin K → EReal) (w : (⟨2, ![K, d]⟩ : Shape).Idx → EReal) (b g β : Fin d → EReal) : Fin d → EReal :=
  lnRelu (denseRow x w b) g β

/-- A layer of a row reads its row, the weights, and the three vectors entry by entry. -/
theorem layerRow_congr {K d : ℕ} {x x' : Fin K → EReal} {w w' : (⟨2, ![K, d]⟩ : Shape).Idx → EReal}
    {b b' g g' β β' : Fin d → EReal} (hx : ∀ k, x k = x' k) (hw : ∀ y, w y = w' y) (hb : ∀ k, b k = b' k)
    (hg : ∀ k, g k = g' k) (hβ : ∀ k, β k = β' k) (j : Fin d) :
    layerRow x w b g β j = layerRow x' w' b' g' β' j := by
  rw [funext hx, funext hw, funext hb, funext hg, funext hβ]

/-- The two layers on a whole [n, 32] array of node features, entry by entry: row (i 0) through both layers, read
    at column (i 1). The bias, gain and offset vectors are [64] arrays. -/
def hidden {n : ℕ} (x : (⟨2, ![n, 32]⟩ : Shape).Idx → EReal) (w1 : (⟨2, ![32, 64]⟩ : Shape).Idx → EReal)
    (b1 g1 β1 : (⟨1, ![64]⟩ : Shape).Idx → EReal) (w2 : (⟨2, ![64, 64]⟩ : Shape).Idx → EReal)
    (b2 g2 β2 : (⟨1, ![64]⟩ : Shape).Idx → EReal) : (⟨2, ![n, 64]⟩ : Shape).Idx → EReal :=
  fun i => layerRow
    (layerRow (fun k => x (ix2 (i 0) k)) w1 (fun k => b1 (ix1 k)) (fun k => g1 (ix1 k)) (fun k => β1 (ix1 k)))
    w2 (fun k => b2 (ix1 k)) (fun k => g2 (ix1 k)) (fun k => β2 (ix1 k)) (i 1)

/-! ## One layer with the vector unit's operations -/

/-- The vector unit's layer on a block of rows: the product into the zero accumulator plus the bias row, then the
    normalisation; at entry (r, j) it is the layer of row r at j. -/
theorem vecLayer_apply {n K d : ℕ} {φ₁ φ₂ : FTy} (a : FVec Ideal ⟨2, ![n, K]⟩ φ₁) (w : FVec Ideal ⟨2, ![K, d]⟩ φ₂)
    (b g β : FVec Ideal ⟨2, ![1, d]⟩ .f32)
    (hr : (⟨2, ![n, d]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, d]⟩)
    (h1 : (⟨2, ![1, d]⟩ : Shape).ShapeCasts ⟨2, ![1, d]⟩) (hb1 : (⟨2, ![1, d]⟩ : Shape).Broadcasts ⟨2, ![n, d]⟩)
    (r : Fin n) (j : Fin d) :
    vecNorm (addf (matmul (DotDims.plain n K d) none a w (constant (F := Ideal) ⟨2, ![n, d]⟩ .f32 0x00000000#32))
        (broadcastTo ⟨2, ![n, d]⟩ (shapeCast ⟨2, ![1, d]⟩ b h1) hb1)) g β hr hφ hacc hc hb h1 hb1 (ix2 r j)
      = layerRow (fun k => a (ix2 r k)) w (fun k => b (ix2 (0 : Fin 1) k)) (fun k => g (ix2 (0 : Fin 1) k))
          (fun k => β (ix2 (0 : Fin 1) k)) j := by
  refine (vecNorm_apply _ g β hr hφ hacc hc hb h1 hb1 r j).trans (lnRelu_congr (fun k => ?_) (fun _ => rfl) (fun _ => rfl) j)
  rw [addf_apply]
  refine congrArg₂ (· + ·) (LibDense.matmul_plain a w (ix2 r k)) ?_
  rw [broadcastTo_1b_ab_apply, shapeCast_self]

/-! ## One layer with the host's operations -/

/-- The host's layer on an array of rows: the dot_general plus the bias vector broadcast through a [1, d] row,
    then the normalisation; at entry (r, j) it is the layer of row r at j. -/
theorem hostLayer_apply {n K d : ℕ} (a : FVec Ideal ⟨2, ![n, K]⟩ .f32) (w : FVec Ideal ⟨2, ![K, d]⟩ .f32)
    (b g β : FVec Ideal ⟨1, ![d]⟩ .f32)
    (hr : (⟨2, ![n, d]⟩ : Shape).ReducesTo [1] ⟨1, ![n]⟩) (hu : 0 < (⟨0, ![]⟩ : Shape).numel)
    (hc : (⟨1, ![n]⟩ : Shape).BroadcastsInDim ⟨2, ![n, 1]⟩ ![0])
    (hs : (⟨0, ![]⟩ : Shape).BroadcastsInDim ⟨2, ![n, 1]⟩ ![])
    (hb : (⟨2, ![n, 1]⟩ : Shape).BroadcastsInDim ⟨2, ![n, d]⟩ ![0, 1])
    (h1 : (⟨1, ![d]⟩ : Shape).BroadcastsInDim ⟨2, ![1, d]⟩ ![1])
    (hb1 : (⟨2, ![1, d]⟩ : Shape).BroadcastsInDim ⟨2, ![n, d]⟩ ![0, 1])
    (hz : (⟨0, ![]⟩ : Shape).BroadcastsInDim ⟨2, ![n, d]⟩ ![])
    (hR : (⟨2, ![n, d]⟩ : Shape).Reduces [1] ⟨1, ![n]⟩) (r : Fin n) (j : Fin d) :
    hostNorm (addf (Host.dotGeneral (DotDims.plain n K d) none a w)
        (broadcastInDim ⟨2, ![n, d]⟩ ![0, 1] hb1 (broadcastInDim ⟨2, ![1, d]⟩ ![1] h1 b))) g β hr hu hc hs hb h1 hb1 hz (ix2 r j)
      = layerRow (fun k => a (ix2 r k)) w (fun k => b (ix1 k)) (fun k => g (ix1 k)) (fun k => β (ix1 k)) j := by
  refine (hostNorm_apply _ g β hr hu hc hs hb h1 hb1 hz hR r j).trans (lnRelu_congr (fun k => ?_) (fun _ => rfl) (fun _ => rfl) j)
  rw [addf_apply, bcast_1d_nd, bcast_d_1d]
  refine congrArg (· + b (ix1 k)) ?_
  exact LibDense.dotGeneral_plain .single a w (ix2 r k)

end Cert.Mlp

end
-- ==== Proof.KernelBlock.lean ====
/-
  What the kernel's body stores for one block of 10000 rows, read at an entry: the body rounds the block of node
  features and the first weights to bf16 (the identity on the extended reals), multiplies them into a zero
  accumulator, adds the bias row, normalises each row, scales, shifts and rectifies it, and does the same again with
  the second weights. At entry (r, j) of the block the stored value is row r of the block through the two layers, at
  column j; the bias, gain and offset blocks are the [1, 64] rows the launch reshaped the vectors to.
-/
import proofs.«125154_j44220983279747_1_alg».proof.Proof.Gen.KernelIdeal.Skeleton
import proofs.«125154_j44220983279747_1_alg».proof.Proof.Mlp

noncomputable section

namespace Cert.KernelIdeal.Block

open Idealize.ShloMosaic Idealize.ShloMosaic.ValueIdx Cert.KernelIdeal Cert.KernelIdeal.Gen Cert.Mlp Cert.NormRow

/-- The first layer's payload at an entry. -/
theorem firstLayer_apply (x0 : Vec Ideal S10000x32 .f32) (x1 : Vec Ideal S32x64 .f32) (x2 x3 x4 : Vec Ideal S1x64 .f32)
    (r : Fin 10000) (j : Fin 64) :
    k0_pay2 (F := Ideal) x0 x1 x2 x3 x4 (ix2 r j)
      = layerRow (fun k => x0 (ix2 r k)) x1 (fun k => x2 (ix2 (0 : Fin 1) k)) (fun k => x3 (ix2 (0 : Fin 1) k))
          (fun k => x4 (ix2 (0 : Fin 1) k)) j :=
  vecLayer_apply (n := 10000) (K := 32) (d := 64) (truncf .bf16 x0 bitsLt_bf16_f32) (truncf .bf16 x1 bitsLt_bf16_f32)
    x2 x3 x4 reduces_S10000x64_S10000 (.inl rfl) rfl shapeCasts_S10000_S10000x1 broadcasts_S10000x1_S10000x64
    shapeCasts_S1x64_S1x64 broadcasts_S1x64_S10000x64 r j

/-- The second layer's payload at an entry, of any rounded rows and weights. -/
theorem secondLayer_apply (h : FVec Ideal S10000x64 .bf16) (w : FVec Ideal S64x64 .bf16) (x6 x7 x8 : Vec Ideal S1x64 .f32)
    (r : Fin 10000) (j : Fin 64) :
    k0_pay1 (F := Ideal) h w x6 x7 x8 (ix2 r j)
      = layerRow (fun k => h (ix2 r k)) w (fun k => x6 (ix2 (0 : Fin 1) k)) (fun k => x7 (ix2 (0 : Fin 1) k))
          (fun k => x8 (ix2 (0 : Fin 1) k)) j :=
  vecLayer_apply (n := 10000) (K := 64) (d := 64) h w x6 x7 x8 reduces_S10000x64_S10000 (.inl rfl) rfl
    shapeCasts_S10000_S10000x1 broadcasts_S10000x1_S10000x64 shapeCasts_S1x64_S1x64 broadcasts_S1x64_S10000x64 r j

/-- The stored block at an entry: row r of the loaded block through both layers. -/
theorem stored_apply (x0 : Vec Ideal S10000x32 .f32) (x1 : Vec Ideal S32x64 .f32) (x2 x3 x4 : Vec Ideal S1x64 .f32)
    (x5 : Vec Ideal S64x64 .f32) (x6 x7 x8 : Vec Ideal S1x64 .f32) (r : Fin 10000) (j : Fin 64) :
    k0_pay1 (F := Ideal) (k0_pay2 x0 x1 x2 x3 x4) (k0_pay3 x5) x6 x7 x8 (ix2 r j)
      = layerRow
          (layerRow (fun k => x0 (ix2 r k)) x1 (fun k => x2 (ix2 (0 : Fin 1) k)) (fun k => x3 (ix2 (0 : Fin 1) k))
            (fun k => x4 (ix2 (0 : Fin 1) k)))
          x5 (fun k => x6 (ix2 (0 : Fin 1) k)) (fun k => x7 (ix2 (0 : Fin 1) k)) (fun k => x8 (ix2 (0 : Fin 1) k)) j := by
  refine (secondLayer_apply _ _ x6 x7 x8 r j).trans ?_
  refine lnRelu_congr (fun k => ?_) (fun _ => rfl) (fun _ => rfl) j
  exact denseRow_congr (fun k' => firstLayer_apply x0 x1 x2 x3 x4 r k') _ _ k

end Cert.KernelIdeal.Block

end
-- ==== Proof.KernelArray.lean ====
/-
  The array the kernel's one region leaves: the hidden node features, as one function of the argument arrays.

  The grid has ten points; point t stages rows 10000·t … 10000·t + 9999 of the node features, the whole of both
  weight matrices and the six [1, 64] rows the launch reshaped the bias, gain and offset vectors to, and writes
  back rows 10000·t … of the result. What it writes is, entry by entry, its rows through the two layers, so the
  ten blocks are the ten row bands of one function of the arguments; the bands cover the array.
-/
import proofs.«125154_j44220983279747_1_alg».proof.Proof.Gen.KernelIdeal.Frame
import proofs.«125154_j44220983279747_1_alg».proof.Proof.KernelBlock
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen Cert.Mlp

variable (m : (ℓ : Loc nD τ sig) → Buf (Elt Ideal) ℓ) (ρ : Dev nD → PrngReg)

theorem hz : (![0, 0] : Fin 2 → Nat) = fun _ => 0 := funext fun a => by fin_cases a <;> rfl

/-- The hidden features of every node, from the argument arrays as launched. -/
def H (c : Dev nD) : S100000x64.Idx → EReal :=
  Mlp.hidden (n := 100000) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ## The reshaped vectors as the region finds them -/

theorem V_v0 (c : Dev nD) : (V m c main_v0 : S1x64.Idx → EReal)
    = shapeCast S1x64 (m ((c : Thread nD τ).loc main_arg3) : S64.Idx → EReal) shapeCasts_S64_S1x64 := by
  show StableHlo.after hostOps0 (fun b => m (c, b)) (Proc.devRef .tc main_v0) = _
  after_results
  rfl

/-! ## The printed index maps over the grid -/

theorem idx_facts : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_5.index t (0 : Fin 2) = 0 ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The input blocks -/

/-- Point t's block of node features is rows 10000·t … of the argument. -/
theorem iblk0_apply (c : Dev nD) (t : Fin cfg0.N) (r : Fin 10000) (k : Fin 32) (R : Fin 100000)
    (hR : R.val = 10000 * t.val + r.val) :
    (iblk m c 0 t : Vec Ideal S10000x32 .f32) (ix2 r k)
      = (m ((c : Thread nD τ).loc main_arg0) : S100000x32.Idx → EReal) (ix2 R k) := by
  unfold iblk
  rw [View.read_apply]
  show V m c main_arg0 _ = _
  rw [V_main_arg0]
  refine congrArg _ (funext fun a => Fin.ext ?_)
  match a with
  | ⟨0, _⟩ => show win0_0.index t (0 : Fin 2) * 10000 + 1 * r.val = R.val; rw [(idx_facts t).1, hR]; omega
  | ⟨1, _⟩ => show win0_0.index t (1 : Fin 2) * 32 + 1 * k.val = k.val; rw [(idx_facts t).2.1]; omega

/-- Each point stages the whole of the first weight matrix. -/
theorem iblk1_apply (c : Dev nD) (t : Fin cfg0.N) (y : S32x64.Idx) :
    (iblk m c 1 t : Vec Ideal S32x64 .f32) y = (m ((c : Thread nD τ).loc main_arg2) : S32x64.Idx → EReal) y := by
  unfold iblk
  rw [View.read_apply]
  show V m c main_arg2 _ = _
  rw [V_main_arg2]
  refine congrArg _ (funext fun a => Fin.ext ?_)
  match a with
  | ⟨0, _⟩ => show win0_1.index t (0 : Fin 2) * 32 + 1 * (y 0).val = (y 0).val; rw [(idx_facts t).2.2.2.2.1]; omega
  | ⟨1, _⟩ => show win0_1.index t (1 : Fin 2) * 64 + 1 * (y 1).val = (y 1).val; rw [(idx_facts t).2.2.2.2.2.1]; omega

/-- Each point stages the whole of the second weight matrix. -/
theorem iblk5_apply (c : Dev nD) (t : Fin cfg0.N) (y : S64x64.Idx) :
    (iblk m c 5 t : Vec Ideal S64x64 .f32) y = (m ((c : Thread nD τ).loc main_arg6) : S64x64.Idx → EReal) y := by
  unfold iblk
  rw [View.read_apply]
  show V m c main_arg6 _ = _
  rw [V_main_arg6]
  refine congrArg _ (funext fun a => Fin.ext ?_)
  match a with
  | ⟨0, _⟩ => show win0_5.index t (0 : Fin 2) * 64 + 1 * (y 0).val = (y 0).val; rw [(idx_facts t).2.2.2.2.2.2.1]; omega
  | ⟨1, _⟩ => show win0_5.index t (1 : Fin 2) * 64 + 1 * (y 1).val = (y 1).val; rw [(idx_facts t).2.2.2.2.2.2.2.1]; omega

theorem V_v1 (c : Dev nD) : (V m c main_v1 : S1x64.Idx → EReal)
    = shapeCast S1x64 (m ((c : Thread nD τ).loc main_arg4) : S64.Idx → EReal) shapeCasts_S64_S1x64 := by
  show StableHlo.after hostOps0 (fun b => m (c, b)) (Proc.devRef .tc main_v1) = _
  after_results
  rfl

theorem V_v2 (c : Dev nD) : (V m c main_v2 : S1x64.Idx → EReal)
    = shapeCast S1x64 (m ((c : Thread nD τ).loc main_arg5) : S64.Idx → EReal) shapeCasts_S64_S1x64 := by
  show StableHlo.after hostOps0 (fun b => m (c, b)) (Proc.devRef .tc main_v2) = _
  after_results
  rfl

theorem V_v3 (c : Dev nD) : (V m c main_v3 : S1x64.Idx → EReal)
    = shapeCast S1x64 (m ((c : Thread nD τ).loc main_arg7) : S64.Idx → EReal) shapeCasts_S64_S1x64 := by
  show StableHlo.after hostOps0 (fun b => m (c, b)) (Proc.devRef .tc main_v3) = _
  after_results
  rfl

theorem V_v4 (c : Dev nD) : (V m c main_v4 : S1x64.Idx → EReal)
    = shapeCast S1x64 (m ((c : Thread nD τ).loc main_arg8) : S64.Idx → EReal) shapeCasts_S64_S1x64 := by
  show StableHlo.after hostOps0 (fun b => m (c, b)) (Proc.devRef .tc main_v4) = _
  after_results
  rfl

theorem V_v5 (c : Dev nD) : (V m c main_v5 : S1x64.Idx → EReal)
    = shapeCast S1x64 (m ((c : Thread nD τ).loc main_arg9) : S64.Idx → EReal) shapeCasts_S64_S1x64 := by
  show StableHlo.after hostOps0 (fun b => m (c, b)) (Proc.devRef .tc main_v5) = _
  after_results
  rfl

/-- A [64] vector reshaped to one [1, 64] row reads, at (0, k), the vector at k. -/
theorem row_read (A : S1x64.Idx → EReal) (x : S64.Idx → EReal) (hA : A = shapeCast S1x64 x shapeCasts_S64_S1x64)
    (e : S1x64.Idx) (k : Fin 64) (he : e = ix2 (0 : Fin 1) k) : A e = x (ix1 k) := by
  subst hA he
  exact shapeCast_a_1a_apply x _ 0 k

/-! ## The six row blocks: each point stages the one row, whole -/

theorem iblk2_apply (c : Dev nD) (t : Fin cfg0.N) (k : Fin 64) :
    (iblk m c 2 t : Vec Ideal S1x64 .f32) (ix2 (0 : Fin 1) k)
      = (m ((c : Thread nD τ).loc main_arg3) : S64.Idx → EReal) (ix1 k) := by
  obtain ⟨_, _, _, _, _, _, _, _, e20, e21, e30, e31, e40, e41, e60, e61, e70, e71, e80, e81⟩ := idx_facts t
  unfold iblk
  rw [View.read_apply]
  show V m c main_v0 _ = _
  refine row_read _ _ (V_v0 m c) _ k (funext fun a => Fin.ext ?_)
  match a with
  | ⟨0, _⟩ => show win0_2.index t (0 : Fin 2) * 1 + 1 * 0 = 0; rw [e20]
  | ⟨1, _⟩ => show win0_2.index t (1 : Fin 2) * 64 + 1 * k.val = k.val; rw [e21]; omega

theorem iblk3_apply (c : Dev nD) (t : Fin cfg0.N) (k : Fin 64) :
    (iblk m c 3 t : Vec Ideal S1x64 .f32) (ix2 (0 : Fin 1) k)
      = (m ((c : Thread nD τ).loc main_arg4) : S64.Idx → EReal) (ix1 k) := by
  obtain ⟨_, _, _, _, _, _, _, _, e20, e21, e30, e31, e40, e41, e60, e61, e70, e71, e80, e81⟩ := idx_facts t
  unfold iblk
  rw [View.read_apply]
  show V m c main_v1 _ = _
  refine row_read _ _ (V_v1 m c) _ k (funext fun a => Fin.ext ?_)
  match a with
  | ⟨0, _⟩ => show win0_3.index t (0 : Fin 2) * 1 + 1 * 0 = 0; rw [e30]
  | ⟨1, _⟩ => show win0_3.index t (1 : Fin 2) * 64 + 1 * k.val = k.val; rw [e31]; omega

theorem iblk4_apply (c : Dev nD) (t : Fin cfg0.N) (k : Fin 64) :
    (iblk m c 4 t : Vec Ideal S1x64 .f32) (ix2 (0 : Fin 1) k)
      = (m ((c : Thread nD τ).loc main_arg5) : S64.Idx → EReal) (ix1 k) := by
  obtain ⟨_, _, _, _, _, _, _, _, e20, e21, e30, e31, e40, e41, e60, e61, e70, e71, e80, e81⟩ := idx_facts t
  unfold iblk
  rw [View.read_apply]
  show V m c main_v2 _ = _
  refine row_read _ _ (V_v2 m c) _ k (funext fun a => Fin.ext ?_)
  match a with
  | ⟨0, _⟩ => show win0_4.index t (0 : Fin 2) * 1 + 1 * 0 = 0; rw [e40]
  | ⟨1, _⟩ => show win0_4.index t (1 : Fin 2) * 64 + 1 * k.val = k.val; rw [e41]; omega

theorem iblk6_apply (c : Dev nD) (t : Fin cfg0.N) (k : Fin 64) :
    (iblk m c 6 t : Vec Ideal S1x64 .f32) (ix2 (0 : Fin 1) k)
      = (m ((c : Thread nD τ).loc main_arg7) : S64.Idx → EReal) (ix1 k) := by
  obtain ⟨_, _, _, _, _, _, _, _, e20, e21, e30, e31, e40, e41, e60, e61, e70, e71, e80, e81⟩ := idx_facts t
  unfold iblk
  rw [View.read_apply]
  show V m c main_v3 _ = _
  refine row_read _ _ (V_v3 m c) _ k (funext fun a => Fin.ext ?_)
  match a with
  | ⟨0, _⟩ => show win0_6.index t (0 : Fin 2) * 1 + 1 * 0 = 0; rw [e60]
  | ⟨1, _⟩ => show win0_6.index t (1 : Fin 2) * 64 + 1 * k.val = k.val; rw [e61]; omega

theorem iblk7_apply (c : Dev nD) (t : Fin cfg0.N) (k : Fin 64) :
    (iblk m c 7 t : Vec Ideal S1x64 .f32) (ix2 (0 : Fin 1) k)
      = (m ((c : Thread nD τ).loc main_arg8) : S64.Idx → EReal) (ix1 k) := by
  obtain ⟨_, _, _, _, _, _, _, _, e20, e21, e30, e31, e40, e41, e60, e61, e70, e71, e80, e81⟩ := idx_facts t
  unfold iblk
  rw [View.read_apply]
  show V m c main_v4 _ = _
  refine row_read _ _ (V_v4 m c) _ k (funext fun a => Fin.ext ?_)
  match a with
  | ⟨0, _⟩ => show win0_7.index t (0 : Fin 2) * 1 + 1 * 0 = 0; rw [e70]
  | ⟨1, _⟩ => show win0_7.index t (1 : Fin 2) * 64 + 1 * k.val = k.val; rw [e71]; omega

theorem iblk8_apply (c : Dev nD) (t : Fin cfg0.N) (k : Fin 64) :
    (iblk m c 8 t : Vec Ideal S1x64 .f32) (ix2 (0 : Fin 1) k)
      = (m ((c : Thread nD τ).loc main_arg9) : S64.Idx → EReal) (ix1 k) := by
  obtain ⟨_, _, _, _, _, _, _, _, e20, e21, e30, e31, e40, e41, e60, e61, e70, e71, e80, e81⟩ := idx_facts t
  unfold iblk
  rw [View.read_apply]
  show V m c main_v5 _ = _
  refine row_read _ _ (V_v5 m c) _ k (funext fun a => Fin.ext ?_)
  match a with
  | ⟨0, _⟩ => show win0_8.index t (0 : Fin 2) * 1 + 1 * 0 = 0; rw [e80]
  | ⟨1, _⟩ => show win0_8.index t (1 : Fin 2) * 64 + 1 * k.val = k.val; rw [e81]; omega

/-! ## What a point writes back -/

/-- The array's row that row r of point t's block is. -/
def rowOf (t : Fin cfg0.N) (r : Fin 10000) : Fin 100000 :=
  ⟨10000 * t.val + r.val, by have := t.isLt; have hN : cfg0.N = 10 := N_0; have := r.isLt; omega⟩

/-- Point t writes back band t of the hidden features: each entry of the stored block is its row of the staged node
    features through the two layers, and the staged blocks are the arguments' rows, matrices and vectors. -/
theorem flushed_eq (c : Dev nD) (t : Fin cfg0.N) :
    (dats m 0 c).flushed 9 t = ((cfg0.win 9).blk t).view.read (Elt Ideal) (H m c) := by
  obtain ⟨_, _, e90, e91, _⟩ := idx_facts t
  show (cfg0.win 9).cut (grid0.coords t) ((dats m 0 c).after 9 t) = _
  rw [after0_9]
  unfold out0_9
  rw [View.canon_unit_zero hz]
  simp only [View.ld_unit_zero (S := S10000x32) hz, View.ld_unit_zero (S := S32x64) hz, View.ld_unit_zero (S := S1x64) hz,
    View.ld_unit_zero (S := S64x64) hz]
  funext y
  obtain ⟨r, j, rfl⟩ : ∃ (r : Fin 10000) (j : Fin 64), y = ix2 r j := ⟨y 0, y 1, eq_ix2 y⟩
  rw [View.read_apply]
  have hemb : ((cfg0.win 9).blk t).view.emb (ix2 r j) = ix2 (rowOf t r) j := funext fun a => Fin.ext (by
    match a with
    | ⟨0, _⟩ => show win0_9.index t (0 : Fin 2) * 10000 + 1 * r.val = 10000 * t.val + r.val; rw [e90]; omega
    | ⟨1, _⟩ => show win0_9.index t (1 : Fin 2) * 64 + 1 * j.val = j.val; rw [e91]; omega)
  rw [hemb]
  refine (Block.stored_apply _ _ _ _ _ _ _ _ _ r j).trans ?_
  unfold H Mlp.hidden
  exact layerRow_congr
    (fun k => layerRow_congr (fun k' => iblk0_apply m c t r k' (rowOf t r) rfl) (iblk1_apply m c t) (iblk2_apply m c t)
      (iblk3_apply m c t) (iblk4_apply m c t) k)
    (iblk5_apply m c t) (iblk6_apply m c t) (iblk7_apply m c t) (iblk8_apply m c t) j

/-! ## The ten bands cover the array -/

theorem mem_blk (t : Fin cfg0.N) (i : S100000x64.Idx) :
    i ∈ ((cfg0.win 9).blk t).view.set ↔ ∀ a : Fin 2, win0_9.index t a * S10000x64.size a ≤ (i a).val
      ∧ (i a).val < win0_9.index t a * S10000x64.size a + S10000x64.size a := by
  show i ∈ ((View.whole main_v6).slice (win0_9.rect t)).set ↔ _
  rw [View.set_slice_whole, Rect.mem_set_unit]
  exact Iff.rfl

/-- Row R lies in the band of point R / 10000. -/
theorem cover (i : S100000x64.Idx) :
    ∃ t : Fin cfg0.N, (cfg0.win 9).flush t = true ∧ i ∈ ((cfg0.win 9).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by omega⟩, rfl⟩
  obtain ⟨_, _, e90, e91, _⟩ := idx_facts t
  refine ⟨t, flush0_9 t, ?_⟩
  rw [mem_blk]
  intro a
  match a with
  | ⟨0, _⟩ =>
    show win0_9.index t (0 : Fin 2) * 10000 ≤ (i 0).val ∧ (i 0).val < win0_9.index t (0 : Fin 2) * 10000 + 10000
    rw [e90, ht]; omega
  | ⟨1, _⟩ =>
    show win0_9.index t (1 : Fin 2) * 64 ≤ (i 1).val ∧ (i 1).val < win0_9.index t (1 : Fin 2) * 64 + 64
    rw [e91]; omega

/-- The region's output array after the run is the hidden features of every node. -/
theorem final (c : Dev nD) : (dats m 0 c).arrAt 9 cfg0.N = H m c :=
  (dats m 0 c).arrAt_eq_of_cover 9 (H m c) (fun t _ => flushed_eq m c t) cover

end Cert.KernelIdeal.Hidden

end
-- ==== Proof.KernelRun.lean ====
/-
  The kernel's program, run: after the region the host gathers the hidden rows of the edges' sources, sums them
  into the edges' targets and adds the hidden features. The lines after the region are read once, over any contents
  of the buffers they start from, as one function of the region's output array and the edge list; the region's
  output array is the hidden features of every node.
-/
import proofs.«125154_j44220983279747_1_alg».proof.Proof.KernelArray

noncomputable section

open Idealize.ShloMosaic Idealize.ShloMosaic.TcCoe Idealize.SL.Sem Idealize.ShloMosaic.ValueIdx
open Idealize.ShloMosaic.Pipeline (Dat)

namespace Cert.KernelIdeal.Hidden

open Cert.KernelIdeal Cert.KernelIdeal.Gen Cert.Mlp

variable (m : (ℓ : Loc nD τ sig) → Buf (Elt Ideal) ℓ) (ρ : Dev nD → PrngReg)

/-- The message passing on hidden features h over the edge list e: row 1 of e names each edge's source (a negative
    number counted from the end), row 0 its target; h plus the sources' rows summed into the targets' rows. -/
def aggregate (h : FVec Ideal S100000x64 .f32) (e : IVec S2x1250000 32) : FVec Ideal S100000x64 .f32 :=
  addf h
    (Host.scatterAdd scatter_S100000x64_S1250000x1_S1250000x64_1_0_0_1
      (broadcastInDim S100000x64 ![] bcast_S_S100000x64 (constant (F := Ideal) S_ .f32 0x00000000#32))
      (broadcastInDim S1250000x1 ![0] bcast_S1250000_S1250000x1_0
        (shapeCast S1250000 (extractStridedSlice S1x1250000 ![0, 0] e slices_S2x1250000_S1x1250000_0_0)
          shapeCasts_S1x1250000_S1250000))
      (Host.gather gather_S100000x64_S1250000x1_S1250000x64_1_0_n_n_0_1_164 h
        (broadcastInDim S1250000x1 ![0] bcast_S1250000_S1250000x1_0
          (select
            (cmpi .slt
              (shapeCast S1250000 (extractStridedSlice S1x1250000 ![1, 0] e slices_S2x1250000_S1x1250000_1_0)
                shapeCasts_S1x1250000_S1250000)
              (broadcastInDim S1250000 ![] bcast_S_S1250000 (constantI S_ 32 0#32)))
            (addi
              (shapeCast S1250000 (extractStridedSlice S1x1250000 ![1, 0] e slices_S2x1250000_S1x1250000_1_0)
                shapeCasts_S1x1250000_S1250000)
              (broadcastInDim S1250000 ![] bcast_S_S1250000 (constantI S_ 32 100000#32)))
            (shapeCast S1250000 (extractStridedSlice S1x1250000 ![1, 0] e slices_S2x1250000_S1x1250000_1_0)
              shapeCasts_S1x1250000_S1250000)))))

/-- The host lines after the region, from any contents: the result buffer ends at the message passing on what the
    region's output buffer and the edge list held. -/
theorem tail_read (W : Valuation τ sig (Elt Ideal)) :
    StableHlo.after (hostOps1 (F := Ideal)) W (Proc.devRef .tc main_v21)
      = aggregate (W (Proc.devRef .tc main_v6)) (W (Proc.devRef .tc main_arg1)) := by
  after_results_simp
  rfl

theorem flat : ([hostOps1] : List (List (HloOp τ sig (Elt Ideal)))).flatten = hostOps1 := by
  rw [List.flatten_cons, List.flatten_nil, List.append_nil]

/-- What the program's result buffer holds after the lines that follow the region. -/
theorem result_eq (c : Dev nD) :
    Pipeline.afterTail₀ cfgs (dats m) 0 (V0 m) [hostOps1] c main_v21
      = aggregate (H m c) (m ((c : Thread nD τ).loc main_arg1)) := by
  unfold Pipeline.afterTail₀
  rw [flat, tail_read]
  refine congrArg₂ aggregate ?_ ?_
  · exact (Pipeline.withArrays_arr spec0 launch0.win.arr_inj c _ _ 9).trans (final m c)
  · exact (Pipeline.withArrays_of_ne _ c (V0 m c) _ main_arg1
      (by exact (by decide : ∀ w, Pipeline.arrRef spec0 w ≠ main_arg1))).trans (V_main_arg1 m c)

/-- The run, read: every weakly fair execution ends with the result buffer at the message passing on the hidden
    features and every argument as launched (a staged argument by the pipeline's account of an input array, the others
    by what the lines around the region leave untouched). -/
theorem run : θ_run defs (onTc (τ := τ) (main (F := Ideal))) ⟨m, fun _ => 0, ρ⟩ fun r => ∀ c : Dev nD,
      r.2.mem ((c.tc : Thread nD τ).loc main_v21) = aggregate (H m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v21 (Pipeline.mem_restRefs_of main_v21 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Hidden

end
-- ==== Proof.RefValue.lean ====
/-
  The reference, read: its result is the hidden node features, two dense layers each followed by layer
  normalisation, a gain, an offset and the rectifier, with the host's operations on the whole [100000, ·] arrays,
  and then the message passing: the hidden rows of the edges' sources gathered, summed into the edges' targets,
  and added to the hidden features. The hidden features are, entry by entry, the row function of the node's row;
  the message passing is carried as one function of the hidden features and the edge list, never opened.
-/
import proofs.«125154_j44220983279747_1_alg».proof.Proof.Gen.ReferenceIdeal.Read
import proofs.«125154_j44220983279747_1_alg».proof.Proof.Mlp

noncomputable section

namespace Cert.ReferenceIdeal.RefValue

open Idealize.ShloMosaic Idealize.ShloMosaic.ValueIdx Cert.ReferenceIdeal Cert.ReferenceIdeal.Gen Cert.ReferenceIdeal.Read
  Cert.Mlp Cert.NormRow

/-- The message passing on hidden features h over the edge list e: h plus, for every edge, the hidden row of its
    source summed into the row of its target. -/
def aggregate (h : FVec Ideal S100000x64 .f32) (e : IVec S2x1250000 32) : FVec Ideal S100000x64 .f32 :=
  addf h (Host.scatterAdd scatter_S100000x64_S1250000x1_S1250000x64_1_0_0_1 (val_main_v69 (F := Ideal))
    (val_main_v70 (F := Ideal) e)
    (Host.gather gather_S100000x64_S1250000x1_S1250000x64_1_0_n_n_0_1_164 h (val_main_v67 (F := Ideal) e)))

/-- The reference's last stage is the message passing on its hidden features. -/
theorem result_eq_aggregate (x0 : FVec Ideal S100000x32 .f32) (x1 : IVec S2x1250000 32) (x2 : FVec Ideal S32x64 .f32)
    (x3 x4 x5 : FVec Ideal S64 .f32) (x6 : FVec Ideal S64x64 .f32) (x7 x8 x9 : FVec Ideal S64 .f32) :
    val_main_v72 (F := Ideal) x0 x1 x2 x3 x4 x5 x6 x7 x8 x9
      = aggregate (val_main_v57 (F := Ideal) x0 x2 x3 x4 x5 x6 x7 x8 x9) x1 := rfl

/-- The first layer's rectified output, entry by entry. -/
theorem first_apply (x0 : FVec Ideal S100000x32 .f32) (x2 : FVec Ideal S32x64 .f32) (x3 x4 x5 : FVec Ideal S64 .f32)
    (r : Fin 100000) (k : Fin 64) :
    val_main_v28 (F := Ideal) x0 x2 x3 x4 x5 (ix2 r k)
      = layerRow (fun k' => x0 (ix2 r k')) x2 (fun k' => x3 (ix1 k')) (fun k' => x4 (ix1 k')) (fun k' => x5 (ix1 k')) k :=
  hostLayer_apply (n := 100000) (K := 32) (d := 64) x0 x2 x3 x4 x5 reducesTo_S100000x64_S100000_d1 h_S_
    bcast_S100000_S100000x1_0 bcast_S_S100000x1 bcast_S100000x1_S100000x64_0_1 bcast_S64_S1x64_1
    bcast_S1x64_S100000x64_0_1 bcast_S_S100000x64 (by decide) r k

/-- The reference's hidden features are, entry by entry, the node's row through the two layers. -/
theorem hidden_eq (x0 : FVec Ideal S100000x32 .f32) (x2 : FVec Ideal S32x64 .f32) (x3 x4 x5 : FVec Ideal S64 .f32)
    (x6 : FVec Ideal S64x64 .f32) (x7 x8 x9 : FVec Ideal S64 .f32) :
    val_main_v57 (F := Ideal) x0 x2 x3 x4 x5 x6 x7 x8 x9 = Mlp.hidden (n := 100000) x0 x2 x3 x4 x5 x6 x7 x8 x9 := by
  funext i
  obtain ⟨r, j, rfl⟩ : ∃ (r : Fin 100000) (j : Fin 64), i = ix2 r j := ⟨i 0, i 1, eq_ix2 i⟩
  refine (hostLayer_apply (n := 100000) (K := 64) (d := 64) (val_main_v28 (F := Ideal) x0 x2 x3 x4 x5) x6 x7 x8 x9
    reducesTo_S100000x64_S100000_d1 h_S_ bcast_S100000_S100000x1_0 bcast_S_S100000x1 bcast_S100000x1_S100000x64_0_1
    bcast_S64_S1x64_1 bcast_S1x64_S100000x64_0_1 bcast_S_S100000x64 (by decide) r j).trans ?_
  exact layerRow_congr (fun k => first_apply x0 x2 x3 x4 x5 r k) (fun _ => rfl) (fun _ => rfl) (fun _ => rfl)
    (fun _ => rfl) j

end Cert.ReferenceIdeal.RefValue

end
-- ==== Proof.lean ====
/-
  The certificate of a message-passing layer: a two-layer perceptron on the node features (each layer a dense map,
  layer normalisation, a gain, an offset and the rectifier), then, along every edge, the hidden row of the source
  summed into the target's row and added to the hidden features.

  The kernel computes the perceptron in one region, ten bands of 10000 rows, rounding the operands of its two matrix
  products to bf16, and leaves the message passing to the host; the reference does all of it on the host. Read on the
  extended reals the rounding is the identity, a matrix product into a zero accumulator is the host's dot_general, a
  lane sum is the host's reduce from the zero word, and both programs apply to each row of node features the same
  operations in the same order, so the hidden features are one function of the arguments, entry by entry; the
  message passing is then the same host operations applied to equal arrays. No finiteness is used: nothing is
  distributed, cancelled or reordered except the terms of finite sums.

  Frames: the two kernel programs' are the generated frame certificates; the reference's is its generated run with
  the result dropped. The idealisation rewrote nothing, so there is nothing to preserve.
-/
import proofs.«125154_j44220983279747_1_alg».proof.Defs
import proofs.«125154_j44220983279747_1_alg».proof.Proof.Gen.Kernel
import proofs.«125154_j44220983279747_1_alg».proof.Proof.Gen.Kernel.Frame
import proofs.«125154_j44220983279747_1_alg».proof.Proof.Gen.KernelIdeal
import proofs.«125154_j44220983279747_1_alg».proof.Proof.Gen.KernelIdeal.Frame
import proofs.«125154_j44220983279747_1_alg».proof.Proof.Gen.ReferenceIdeal
import proofs.«125154_j44220983279747_1_alg».proof.Proof.Gen.ReferenceIdeal.Run
import proofs.«125154_j44220983279747_1_alg».proof.Proof.Gen.ReferenceIdeal.Read
import proofs.«125154_j44220983279747_1_alg».proof.Proof.Gen.Pre_finite_inputs
import proofs.«125154_j44220983279747_1_alg».proof.Proof.KernelRun
import proofs.«125154_j44220983279747_1_alg».proof.Proof.RefValue
import Idealize.ShloMosaic.Adequacy
import Idealize.ShloMosaic.Init

noncomputable section

namespace Cert.Proof

open Idealize.ShloMosaic Idealize.ShloMosaic.TcCoe Idealize.SL.Sem

/-- The message passing is spelt with the same host operations in both programs. -/
theorem aggregate_eq (h : FVec Ideal Cert.KernelIdeal.S100000x64 .f32) (e : IVec Cert.KernelIdeal.S2x1250000 32) :
    Cert.ReferenceIdeal.RefValue.aggregate h e = Cert.KernelIdeal.Hidden.aggregate h e := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the message passing on the hidden features of arguments that agree. -/
theorem algebraic : Cert.algebraic_KernelIdeal_ReferenceIdeal := by
  intro m ρ m' ρ' _ hagree
  refine ⟨fun c => Cert.KernelIdeal.Hidden.aggregate (Cert.KernelIdeal.Hidden.H m c)
    (m ((c.tc : Thread Cert.KernelIdeal.nD Cert.KernelIdeal.τ).loc Cert.KernelIdeal.main_arg1)),
    Cert.KernelIdeal.Hidden.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v72_eq, a0, a1, a2, a3, a4, a5, a6, a7, a8, a9,
    Cert.ReferenceIdeal.RefValue.result_eq_aggregate, Cert.ReferenceIdeal.RefValue.hidden_eq]
  exact aggregate_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
